-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S3x128 .f32) (main_arg7 : FVec F S128x64 .f32) (main_arg8 : FVec F S64 .f32) (main_arg9 : FVec F S64x2 .f32) (main_arg10 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S3x128x128 .f32) (main_arg6 : FVec F S3x128 .f32) (main_arg7 : FVec F S128x64 .f32) (main_arg8 : FVec F S64 .f32) (main_arg9 : FVec F S64x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128x128 : Shape := ⟨3, ![1, 128, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 142
  | .vmem => 34
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x64, .f32⟩
  | 8 => ⟨S64, .f32⟩
  | 9 => ⟨S64x2, .f32⟩
  | 10 => ⟨S2, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128x128, .f32⟩
  | 65 => ⟨S128x128, .f32⟩
  | 66 => ⟨S50000x128, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .f32⟩
  | 76 => ⟨S850000x128, .f32⟩
  | 77 => ⟨S850000x128, .f32⟩
  | 78 => ⟨S_, .f32⟩
  | 79 => ⟨S50000x128, .f32⟩
  | 80 => ⟨S850000x1, .i32⟩
  | 81 => ⟨S50000x128, .f32⟩
  | 82 => ⟨S1x128, .f32⟩
  | 83 => ⟨S128, .f32⟩
  | 84 => ⟨S1x128x128, .f32⟩
  | 85 => ⟨S128x128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S128, .f32⟩
  | 104 => ⟨S1x128x128, .f32⟩
  | 105 => ⟨S128x128, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S128, .f32⟩
  | 124 => ⟨S50000x128, .f32⟩
  | 125 => ⟨S_, .f32⟩
  | 126 => ⟨S64x128, .f32⟩
  | 127 => ⟨S50000x1, .i32⟩
  | _ => ⟨S50000x128, .f32⟩

abbrev hbmTy0_1 (i : Nat) : BufTy := match i % 128 with
  | 0 => ⟨S64x128, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | 13 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S64x128, .f32⟩
  | .local _ .vmem, ⟨29, _⟩ => ⟨S128x64, .f32⟩
  | .local _ .vmem, ⟨30, _⟩ => ⟨S64, .f32⟩
  | .local _ .vmem, ⟨31, _⟩ => ⟨S64x2, .f32⟩
  | .local _ .vmem, ⟨32, _⟩ => ⟨S2, .f32⟩
  | .local _ .vmem, ⟨33, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_14 : Ref sig .tc := ⟨.hbm, 107, rfl⟩
abbrev main_v80 : Ref sig .tc := ⟨.hbm, 108, rfl⟩
abbrev main_v81 : Ref sig .tc := ⟨.hbm, 109, rfl⟩
abbrev main_c_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S128x128_S128x128 : S128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S128 : S128.ShapeCasts S128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x2.size a ≤ S64x2.size a
  hwx5_3 : ∀ i : grid5.Coords, EltTy.bits .f32 = 32 ∨ (Rect.block (s := S64x2) S64x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2.size a ≤ S2.size a
  hwx5_4 : ∀ i : grid5.Coords, EltTy.bits .f32 = 32 ∨ (Rect.block (s := S2) S2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x2.size a ≤ S64x2.size a
  hwx5_5 : ∀ i : grid5.Coords, EltTy.bits .f32 = 32 ∨ (Rect.block (s := S64x2) S64x2.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v106) S64x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S64x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S64x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x64, .f32⟩
  | 8 => ⟨S64, .f32⟩
  | 9 => ⟨S64x2, .f32⟩
  | 10 => ⟨S2, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x128x128, .f32⟩
  | 71 => ⟨S128x128, .f32⟩
  | 72 => ⟨S1x128, .f32⟩
  | 73 => ⟨S128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S50000x128, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x128, .f32⟩
  | 8 => ⟨S850000x128, .f32⟩
  | 9 => ⟨S850000x128, .f32⟩
  | 10 => ⟨S_, .f32⟩
  | 11 => ⟨S50000x128, .f32⟩
  | 12 => ⟨S850000x1, .i32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S64x128, .f32⟩
  | 22 => ⟨S50000x1, .i32⟩
  | 23 => ⟨S64x128, .f32⟩
  | 24 => ⟨S_, .f32⟩
  | 25 => ⟨S50000, .f32⟩
  | 26 => ⟨S_, .f32⟩
  | 27 => ⟨S64, .f32⟩
  | 28 => ⟨S50000x1, .i32⟩
  | 29 => ⟨S64, .f32⟩
  | 30 => ⟨S_, .f32⟩
  | 31 => ⟨S64, .f32⟩
  | 32 => ⟨S64, .f32⟩
  | 33 => ⟨S64x1, .f32⟩
  | 34 => ⟨S64x128, .f32⟩
  | 35 => ⟨S64x128, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x2, .f32⟩
  | 44 => ⟨S1x2, .f32⟩
  | 45 => ⟨S64x2, .f32⟩
  | 46 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call2_cst : Ref sig .tc := ⟨.hbm, 119, rfl⟩
abbrev main_call2_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_14 : Ref sig .tc := ⟨.hbm, 127, rfl⟩
abbrev main_v94 : Ref sig .tc := ⟨.hbm, 128, rfl⟩
abbrev main_v95 : Ref sig .tc := ⟨.hbm, 129, rfl⟩
abbrev main_c_15 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call3_cst : Ref sig .tc := ⟨.hbm, 145, rfl⟩
abbrev main_call3_v0 : Ref sig .tc := ⟨.hbm, 146, rfl⟩
abbrev main_v109 : Ref sig .tc := ⟨.hbm, 147, rfl⟩
abbrev main_cst_17 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_18 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_20 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call4_cst : Ref sig .tc := ⟨.hbm, 168, rfl⟩
abbrev main_call4_v0 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KernelRun.lean ====
/-
  The kernel program's run, with its result named.

  The program is six launches with stretches of host operations between them.  Every weakly fair execution of it
  terminates without a fault, and in the final state every buffer that outlives a launch holds the contents at the last
  segment boundary: the fold of the host stretches and of each launch's write-backs over the launch memory.  Read at the
  result buffer this names the result; read at the arguments it says they are as launched.
-/
import proofs.«135167_j87771951661224_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v107) = W12 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v107 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Whole

end
-- ==== Proof.Glue.lean ====
/-
  The graph's edge lists and normalisation coefficients, as the kernel program computes them before its first launch.

  Both programs build them with the same host operations from the edge index array alone: the source and destination
  lists with the self-loops appended, and the column of coefficients rsqrt(max(deg, 1)) at the source times the same at
  the destination.  So at the first segment boundary the kernel program's three buffers hold the reference's three
  stages, by unfolding the two spellings of the same operations.
-/
import proofs.«135167_j87771951661224_1_alg».proof.Proof.Gen.KernelIdeal.Frame
import proofs.«135167_j87771951661224_1_alg».proof.Proof.Gen.ReferenceIdeal.Read

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The source list: the edge sources, then every node once. -/
theorem src_eq (c : Dev nD) :
    W1 (F := F) m ρ c (Proc.devRef .tc main_v3) = Cert.ReferenceIdeal.Read.val_main_v3 (F := F) (m ((c : Thread nD τ).loc main_arg1)) := by
  show StableHlo.after hostOps0 (W0 m ρ c) (Proc.devRef .tc main_v3) = _
  simp only [hostOps0]
  after_results_simp <;> rfl

/-- The destination list: the edge destinations, then every node once. -/
theorem dst_eq (c : Dev nD) :
    W1 (F := F) m ρ c (Proc.devRef .tc main_v6) = Cert.ReferenceIdeal.Read.val_main_v6 (F := F) (m ((c : Thread nD τ).loc main_arg1)) := by
  show StableHlo.after hostOps0 (W0 m ρ c) (Proc.devRef .tc main_v6) = _
  simp only [hostOps0]
  after_results_simp <;> rfl

/-- The column of edge coefficients. -/
theorem coef_eq (c : Dev nD) :
    W1 (F := F) m ρ c (Proc.devRef .tc main_v29) = Cert.ReferenceIdeal.Read.val_main_v29 (F := F) (m ((c : Thread nD τ).loc main_arg1)) := by
  show StableHlo.after hostOps0 (W0 m ρ c) (Proc.devRef .tc main_v29) = _
  simp only [hostOps0]
  after_results_simp <;> rfl

end Cert.KernelIdeal.Glue

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.Layers.lean ====
/-
  The three dense stages of the network, as whole-array functions, and each read at one entry on the extended reals.

  biasRelu agg b : add the bias vector b to every row of agg and clamp below at zero.
  dense h W      : the matrix product h · W of a [50000, 128] matrix with a [128, 128] matrix.
  head p W1 b1 W2 b2 : the two-layer read-out  max(p · W1 + b1, 0) · W2 + b2  of the pooled [64, 128] matrix.

  They are spelt with the host operations the reference applies, so that the reference's stages are these functions of
  the stages before them by unfolding alone.  At an entry: biasRelu is max(agg(p, k) + b(k), 0); dense is the sum over j of
  h(p, j) · W(j, o); head is the sum over j of max((sum over i of p(g, i) · W1(i, j)) + b1(j), 0) · W2(j, o), plus b2(o).
-/
import proofs.«135167_j87771951661224_1_alg».proof.Proof.Gen.ReferenceIdeal
import proofs.«135167_j87771951661224_1_alg».proof.Proof.LibPlainDot
import proofs.«135167_j87771951661224_1_alg».proof.Proof.LibRowBroadcast
import Idealize.ShloMosaic.PureOps.Ideal
import Idealize.ShloMosaic.Lib.ValueIdx
import Idealize.ShloMosaic.Lib.Pipeline.Value

noncomputable section

namespace Cert.Layers

open Idealize.ShloMosaic Idealize.ShloMosaic.ValueIdx Cert.ReferenceIdeal Cert.ReferenceIdeal.Gen

variable {F : FTy → Type} [FloatOps F]

/-- Bias added to every row, then clamped below at zero. -/
def biasRelu (agg : FVec F S50000x128 .f32) (b : FVec F S128 .f32) : FVec F S50000x128 .f32 :=
  maximumf (addf agg (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The matrix product of the node features with a square weight matrix. -/
def dense (h : FVec F S50000x128 .f32) (W : FVec F S128x128 .f32) : FVec F S50000x128 .f32 :=
  Host.dotGeneral dot_S50000x128_S128x128_S50000x128_1_0_0_1_n_n none h W

/-- The read-out of the pooled features: two matrix products, a bias after each, a clamp at zero between them. -/
def head (p : FVec F S64x128 .f32) (W1 : FVec F S128x64 .f32) (b1 : FVec F S64 .f32) (W2 : FVec F S64x2 .f32) (b2 : FVec F S2 .f32) :
    FVec F S64x2 .f32 :=
  addf (Host.dotGeneral dot_S64x64_S64x2_S64x2_1_0_0_1_n_n none
      (maximumf (addf (Host.dotGeneral dot_S64x128_S128x64_S64x64_1_0_0_1_n_n none p W1)
          (broadcastInDim S64x64 ![0, 1] bcast_S1x64_S64x64_0_1 (broadcastInDim S1x64 ![1] bcast_S64_S1x64_1 b1)))
        (broadcastInDim S64x64 ![] bcast_S_S64x64 (constant S_ .f32 0x00000000#32))) W2)
    (broadcastInDim S64x2 ![0, 1] bcast_S1x2_S64x2_0_1 (broadcastInDim S1x2 ![1] bcast_S2_S1x2_1 b2))

/-- A scalar spread over any shape reads the scalar everywhere. -/
theorem scalar_fill_apply {α : Type} {s : Shape} (h : S_.BroadcastsInDim s ![]) (x : S_.Idx → α) (j : s.Idx) :
    broadcastInDim s ![] h x j = x ix0 :=
  broadcastInDim_apply ![] h x j ix0 (fun a => a.elim0)

/-- The zero every clamp compares with. -/
abbrev zero : EReal := Ideal.ofBits .f32 0x00000000#32

theorem biasRelu_apply (agg : FVec Ideal S50000x128 .f32) (b : FVec Ideal S128 .f32) (p : Fin 50000) (k : Fin 128) :
    biasRelu agg b (ix2 p k) = max (agg (ix2 p k) + b (ix1 k)) zero := by
  unfold biasRelu
  rw [maximumf_apply, addf_apply, LibRowBroadcast.row_mat_apply, LibRowBroadcast.vec_row_apply, scalar_fill_apply, constant_apply]

theorem dense_apply (h : FVec Ideal S50000x128 .f32) (W : FVec Ideal S128x128 .f32) (p : Fin 50000) (o : Fin 128) :
    dense h W (ix2 p o) = ∑ j : Fin 128, h (ix2 p j) * W (ix2 j o) :=
  LibPlainDot.dotGeneral_apply dot_S50000x128_S128x128_S50000x128_1_0_0_1_n_n rfl rfl rfl rfl rfl rfl none .single h W p o

theorem head_apply (p : FVec Ideal S64x128 .f32) (W1 : FVec Ideal S128x64 .f32) (b1 : FVec Ideal S64 .f32)
    (W2 : FVec Ideal S64x2 .f32) (b2 : FVec Ideal S2 .f32) (g : Fin 64) (o : Fin 2) :
    head p W1 b1 W2 b2 (ix2 g o)
      = (∑ j : Fin 64, max ((∑ i : Fin 128, p (ix2 g i) * W1 (ix2 i j)) + b1 (ix1 j)) zero * W2 (ix2 j o)) + b2 (ix1 o) := by
  unfold head
  rw [addf_apply, LibRowBroadcast.row_mat_apply, LibRowBroadcast.vec_row_apply]
  refine congrArg (· + b2 (ix1 o)) ?_
  refine (LibPlainDot.dotGeneral_apply dot_S64x64_S64x2_S64x2_1_0_0_1_n_n rfl rfl rfl rfl rfl rfl none .single _ W2 g o).trans ?_
  refine Finset.sum_congr rfl fun j _ => ?_
  refine congrArg (· * W2 (ix2 j o)) ?_
  rw [maximumf_apply, addf_apply, LibRowBroadcast.row_mat_apply, LibRowBroadcast.vec_row_apply, scalar_fill_apply, constant_apply]
  refine congrArg (fun z => max (z + b1 (ix1 j)) zero) ?_
  exact LibPlainDot.dotGeneral_apply dot_S64x128_S128x64_S64x64_1_0_0_1_n_n rfl rfl rfl rfl rfl rfl none .single p W1 g j

end Cert.Layers

end
-- ==== Proof.RefLayers.lean ====
/-
  The reference, layer by layer: each of its dense stages is one of the three layer functions applied to the stages
  before it.  These are the reference's own operations regrouped, so each identity holds by unfolding the definitions.
-/
import proofs.«135167_j87771951661224_1_alg».proof.Proof.Gen.ReferenceIdeal.Read
import proofs.«135167_j87771951661224_1_alg».proof.Proof.Layers

noncomputable section

namespace Cert.RefLayers

open Idealize.ShloMosaic Cert.ReferenceIdeal Cert.ReferenceIdeal.Gen Cert.ReferenceIdeal.Read Cert.Layers

variable {F : FTy → Type} [FloatOps F]

/-- The first transform is the product x · W0. -/
theorem first_eq (x0 : (⟨S50000x128, .f32⟩ : BufTy).Contents (Elt F)) (x3 : (⟨S128x128, .f32⟩ : BufTy).Contents (Elt F)) :
    val_main_v30 (F := F) x0 x3 = dense x0 x3 := rfl

/-- The second transform: the first aggregate, biased by b0 and clamped, times Ws[0]. -/
theorem layer1_eq (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) :
    dense (biasRelu (val_main_v42 (F := F) x0 x1 x3) x4) (val_main_v48 (F := F) x5) = val_main_v51 (F := F) x0 x1 x3 x4 x5 := rfl

/-- The third transform: the second aggregate, biased by bs[0] and clamped, times Ws[1]. -/
theorem layer2_eq (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) :
    dense (biasRelu (val_main_v63 (F := F) x0 x1 x3 x4 x5) (val_main_v50 (F := F) x6)) (val_main_v69 (F := F) x5) = val_main_v72 (F := F) x0 x1 x3 x4 x5 x6 := rfl

/-- The fourth transform: the third aggregate, biased by bs[1] and clamped, times Ws[2]. -/
theorem layer3_eq (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) :
    dense (biasRelu (val_main_v84 (F := F) x0 x1 x3 x4 x5 x6) (val_main_v71 (F := F) x6)) (val_main_v90 (F := F) x5) = val_main_v93 (F := F) x0 x1 x3 x4 x5 x6 := rfl

/-- The node features before pooling: the fourth aggregate, biased by bs[2] and clamped. -/
theorem last_eq (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) :
    biasRelu (val_main_v105 (F := F) x0 x1 x3 x4 x5 x6) (val_main_v92 (F := F) x6) = val_main_v109 (F := F) x0 x1 x3 x4 x5 x6 := rfl

/-- The result: the read-out of the pooled features. -/
theorem head_eq (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S3x128x128, .f32⟩ : BufTy).Contents (Elt F)) (x6 : (⟨S3x128, .f32⟩ : BufTy).Contents (Elt F)) (x7 : (⟨S128x64, .f32⟩ : BufTy).Contents (Elt F)) (x8 : (⟨S64, .f32⟩ : BufTy).Contents (Elt F)) (x9 : (⟨S64x2, .f32⟩ : BufTy).Contents (Elt F)) (x10 : (⟨S2, .f32⟩ : BufTy).Contents (Elt F)) :
    head (val_main_v121 (F := F) x0 x1 x2 x3 x4 x5 x6) x7 x8 x9 x10 = val_main_v130 (F := F) x0 x1 x2 x3 x4 x5 x6 x7 x8 x9 x10 := rfl

end Cert.RefLayers

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.Payloads.lean ====
/-
  What each kernel body computes, read at one entry on the extended reals.

  A change of float format is the identity there, and a matrix unit's product into the zero accumulator is the plain sum
  over the contracted coordinate.  So on a block of 5000 rows:
    the first body is the product x · W:            the sum over j of x(p, j) · W(j, o);
    the middle bodies are max(x + b, 0) · W:        the sum over j of max(x(p, j) + b(j), 0) · W(j, o);
    the last row-tiled body is max(x + b, 0):       max(x(p, k) + b(k), 0);
  and the read-out body, on the whole pooled matrix, is max(p · W1 + b1, 0) · W2 + b2.
-/
import proofs.«135167_j87771951661224_1_alg».proof.Proof.Gen.KernelIdeal.Skeleton
import proofs.«135167_j87771951661224_1_alg».proof.Proof.LibPlainDot
import proofs.«135167_j87771951661224_1_alg».proof.Proof.LibBiasRow
import Idealize.ShloMosaic.PureOps.Ideal
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-- The zero every clamp compares with. -/
abbrev zero : EReal := Ideal.ofBits .f32 0x00000000#32

/-- A block of rows with the bias added and the clamp applied, at (p, k). -/
theorem biased_apply (x : Vec Ideal S5000x128 .f32) (b : Vec Ideal S128 .f32) (p : Fin 5000) (k : Fin 128) :
    maximumf (addf x (broadcastTo S5000x128 (shapeCast S1x128 b shapeCasts_S128_S1x128) broadcasts_S1x128_S5000x128))
        (broadcast S5000x128 (Scalar.ofBits (F := Ideal) .f32 0x00000000#32)) (ix2 p k)
      = max (x (ix2 p k) + b (ix1 k)) zero := by
  rw [maximumf_apply, addf_apply, LibBiasRow.vec_spread_apply]
  rfl

theorem k0_pay1_apply (x : Vec Ideal S5000x128 .f32) (w : Vec Ideal S128x128 .f32) (p : Fin 5000) (o : Fin 128) :
    k0_pay1 x w (ix2 p o) = ∑ j : Fin 128, x (ix2 p j) * w (ix2 j o) := by
  unfold k0_pay1
  exact LibPlainDot.matmul_zero_apply dot_S5000x128_S128x128_S5000x128_1_0_0_1_n_n rfl rfl rfl rfl rfl rfl none _ _ p o

theorem k1_pay1_apply (x : Vec Ideal S5000x128 .f32) (b : Vec Ideal S128 .f32) (w : Vec Ideal S128x128 .f32) (p : Fin 5000) (o : Fin 128) :
    k1_pay1 x b w (ix2 p o) = ∑ j : Fin 128, max (x (ix2 p j) + b (ix1 j)) zero * w (ix2 j o) := by
  unfold k1_pay1
  refine (LibPlainDot.matmul_zero_apply dot_S5000x128_S128x128_S5000x128_1_0_0_1_n_n rfl rfl rfl rfl rfl rfl none _ _ p o).trans ?_
  refine Finset.sum_congr rfl fun j _ => ?_
  rw [shapeCast_self, shapeCast_self]
  exact congrArg (· * w (ix2 j o)) (biased_apply x b p j)

theorem k2_pay1_apply (x : Vec Ideal S5000x128 .f32) (b : Vec Ideal S128 .f32) (w : Vec Ideal S128x128 .f32) (p : Fin 5000) (o : Fin 128) :
    k2_pay1 x b w (ix2 p o) = ∑ j : Fin 128, max (x (ix2 p j) + b (ix1 j)) zero * w (ix2 j o) := by
  unfold k2_pay1
  refine (LibPlainDot.matmul_zero_apply dot_S5000x128_S128x128_S5000x128_1_0_0_1_n_n rfl rfl rfl rfl rfl rfl none _ _ p o).trans ?_
  refine Finset.sum_congr rfl fun j _ => ?_
  rw [shapeCast_self, shapeCast_self, shapeCast_self]
  exact congrArg (· * w (ix2 j o)) (biased_apply x b p j)

theorem k3_pay1_eq : @k3_pay1 Ideal _ = @k2_pay1 Ideal _ := rfl

theorem k3_pay1_apply (x : Vec Ideal S5000x128 .f32) (b : Vec Ideal S128 .f32) (w : Vec Ideal S128x128 .f32) (p : Fin 5000) (o : Fin 128) :
    k3_pay1 x b w (ix2 p o) = ∑ j : Fin 128, max (x (ix2 p j) + b (ix1 j)) zero * w (ix2 j o) := by
  rw [k3_pay1_eq]; exact k2_pay1_apply x b w p o

theorem k4_pay1_apply (x : Vec Ideal S5000x128 .f32) (b : Vec Ideal S128 .f32) (p : Fin 5000) (k : Fin 128) :
    k4_pay1 x b (ix2 p k) = max (x (ix2 p k) + b (ix1 k)) zero := by
  unfold k4_pay1
  rw [shapeCast_self, shapeCast_self]
  exact biased_apply x b p k

theorem k5_pay1_apply (x : Vec Ideal S64x128 .f32) (w1 : Vec Ideal S128x64 .f32) (b1 : Vec Ideal S64 .f32)
    (w2 : Vec Ideal S64x2 .f32) (b2 : Vec Ideal S2 .f32) (g : Fin 64) (o : Fin 2) :
    k5_pay1 x w1 b1 w2 b2 (ix2 g o)
      = (∑ j : Fin 64, max ((∑ i : Fin 128, x (ix2 g i) * w1 (ix2 i j)) + b1 (ix1 j)) zero * w2 (ix2 j o)) + b2 (ix1 o) := by
  unfold k5_pay1
  rw [addf_apply, LibBiasRow.vec_spread_apply]
  refine congrArg (· + b2 (ix1 o)) ?_
  refine (LibPlainDot.matmul_zero_apply dot_S64x64_S64x2_S64x2_1_0_0_1_n_n rfl rfl rfl rfl rfl rfl none _ _ g o).trans ?_
  refine Finset.sum_congr rfl fun j _ => ?_
  refine congrArg (· * w2 (ix2 j o)) ?_
  show max (_ + _) _ = _
  rw [LibBiasRow.vec_spread_apply, shapeCast_self]
  refine congrArg (fun z => max (z + b1 (ix1 j)) zero) ?_
  exact LibPlainDot.matmul_zero_apply dot_S64x128_S128x64_S64x64_1_0_0_1_n_n rfl rfl rfl rfl rfl rfl none _ _ g j

end Cert.KernelIdeal.Pay

end
-- ==== Proof.Region0.lean ====
/-
  The first launch: the product x · W0, computed ten blocks of 5000 rows at a time.

  Row r of the product depends on row r of x only.  Point t of the grid reads rows 5000·t … 5000·t + 4999 of x and the
  whole of W0 and writes the same rows of the result, so each block written back is the block of the whole product, and
  the ten blocks tile the array: after the launch the result array is the product of the two arrays the launch found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of x and of the result move together, W0 stays. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q : Fin 10, ∃ t : Fin cfg0.N, win0_2.index t (0 : Fin 2) = q.val :=
  (by decide +kernel : ∀ q : Fin 10, ∃ t : Fin grid0.N, win0_2.index t (0 : Fin 2) = q.val)

/-- What point t writes back is block t of the whole product. -/
theorem flushed_eq (c : Dev nD) (t : Fin cfg0.N) :
    (dat0 (F := Ideal) V c).flushed 2 t
      = ((cfg0.win 2).blk t).view.read (Elt Ideal) (Layers.dense (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext y
  obtain ⟨p, o, rfl⟩ : ∃ (p : Fin 5000) (o : Fin 128), y = ix2 p o := ⟨y 0, y 1, eq_ix2 y⟩
  have hp : p.val < 5000 := p.isLt
  have hr : win0_2.index t (0 : Fin 2) * 5000 + p.val < 50000 := by omega
  show k0_pay1 (iblk0 V c 0 t) (iblk0 V c 1 t) (ix2 p o)
    = Layers.dense (F := Ideal) (V c main_arg0) (V c main_arg3) (((cfg0.win 2).blk t).view.emb (ix2 p o))
  have hemb : ((cfg0.win 2).blk t).view.emb (ix2 p o) = ix2 (⟨win0_2.index t (0 : Fin 2) * 5000 + p.val, hr⟩ : Fin 50000) o := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * o.val = o.val; omega
  rw [hemb, Layers.dense_apply]
  refine (Pay.k0_pay1_apply (iblk0 V c 0 t) (iblk0 V c 1 t) p o).trans ?_
  refine Finset.sum_congr rfl fun j _ => ?_
  have h0 : iblk0 V c 0 t (ix2 p j) = V c main_arg0 (ix2 (⟨win0_2.index t (0 : Fin 2) * 5000 + p.val, hr⟩ : Fin 50000) j) := by
    show V c main_arg0 (((cfg0.win 0).blk t).view.emb (ix2 p j)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * j.val = j.val; omega
  have h1 : iblk0 V c 1 t (ix2 j o) = V c main_arg3 (ix2 j o) := by
    show V c main_arg3 (((cfg0.win 1).blk t).view.emb (ix2 j o)) = _
    refine congrArg (V c main_arg3) ?_
    funext a; apply Fin.ext
    match a with
    | ⟨0, _⟩ => show win0_1.index t (0 : Fin 2) * 128 + 1 * j.val = j.val; omega
    | ⟨1, _⟩ => show win0_1.index t (1 : Fin 2) * 128 + 1 * o.val = o.val; omega
  rw [h0, h1]

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the result array: row r is in the block of the point whose block index is r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have ht' : win0_2.index t (0 : Fin 2) = (i 0).val / 5000 := ht
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array is the product of the arrays the launch found. -/
theorem array_eq (c : Dev nD) :
    (dat0 (F := Ideal) V c).arrAt 2 cfg0.N = Layers.dense (F := Ideal) (V c main_arg0) (V c main_arg3) :=
  (dat0 V c).arrAt_eq_of_cover 2 _ (fun t _ => flushed_eq V c t) cover

end Cert.KernelIdeal.Region0

end
-- ==== Proof.Region1.lean ====
/-
  Launch 1: max(agg + b, 0) · W, computed ten blocks of 5000 rows at a time.

  Row r of the result depends on row r of agg, on the whole bias vector and on the whole weight matrix.  Point t of the
  grid reads rows 5000·t … 5000·t + 4999 of agg, all of b and all of W, and writes the same rows of the result; the ten
  blocks tile the array.  So after the launch the result array is the product of the biased, clamped array with W, as one
  function of the three arrays the launch found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks of agg and of the result move together; b and W stay. -/
theorem idx_facts : ∀ t : Fin cfg1.N, win1_0.index t (0 : Fin 2) = win1_3.index t (0 : Fin 2) ∧ win1_0.index t (1 : Fin 2) = 0
    ∧ win1_1.index t (0 : Fin 1) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q : Fin 10, ∃ t : Fin cfg1.N, win1_3.index t (0 : Fin 2) = q.val :=
  (by decide +kernel : ∀ q : Fin 10, ∃ t : Fin grid1.N, win1_3.index t (0 : Fin 2) = q.val)

/-- What point t writes back is block t of the whole layer. -/
theorem flushed_eq (c : Dev nD) (t : Fin cfg1.N) :
    (dat1 (F := Ideal) V c).flushed 3 t
      = ((cfg1.win 3).blk t).view.read (Elt Ideal)
          (Layers.dense (F := Ideal) (Layers.biasRelu (F := Ideal) (V c main_v42) (V c main_arg4)) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S128) hz1]
  obtain ⟨e0, e1, e2, e3, e4, e5, e6⟩ := idx_facts t
  funext y
  obtain ⟨p, o, rfl⟩ : ∃ (p : Fin 5000) (o : Fin 128), y = ix2 p o := ⟨y 0, y 1, eq_ix2 y⟩
  have hp : p.val < 5000 := p.isLt
  have hr : win1_3.index t (0 : Fin 2) * 5000 + p.val < 50000 := by omega
  show k1_pay1 (iblk1 V c 0 t) (iblk1 V c 1 t) (iblk1 V c 2 t) (ix2 p o)
    = Layers.dense (F := Ideal) (Layers.biasRelu (F := Ideal) (V c main_v42) (V c main_arg4)) (V c main_v44) (((cfg1.win 3).blk t).view.emb (ix2 p o))
  have hemb : ((cfg1.win 3).blk t).view.emb (ix2 p o) = ix2 (⟨win1_3.index t (0 : Fin 2) * 5000 + p.val, hr⟩ : Fin 50000) o := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * o.val = o.val; omega
  rw [hemb, Layers.dense_apply]
  refine (Pay.k1_pay1_apply (iblk1 V c 0 t) (iblk1 V c 1 t) (iblk1 V c 2 t) p o).trans ?_
  refine Finset.sum_congr rfl fun j _ => ?_
  have h0 : iblk1 V c 0 t (ix2 p j) = V c main_v42 (ix2 (⟨win1_3.index t (0 : Fin 2) * 5000 + p.val, hr⟩ : Fin 50000) j) := by
    show V c main_v42 (((cfg1.win 0).blk t).view.emb (ix2 p j)) = _
    refine congrArg (V c main_v42) ?_
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 128 + 1 * j.val = j.val; omega
  have hb : iblk1 V c 1 t (ix1 j) = V c main_arg4 (ix1 j) := by
    show V c main_arg4 (((cfg1.win 1).blk t).view.emb (ix1 j)) = _
    refine congrArg (V c main_arg4) ?_
    funext a; apply Fin.ext
    match a with
    | ⟨0, _⟩ => show win1_1.index t (0 : Fin 1) * 128 + 1 * j.val = j.val; omega
  have h2 : iblk1 V c 2 t (ix2 j o) = V c main_v44 (ix2 j o) := by
    show V c main_v44 (((cfg1.win 2).blk t).view.emb (ix2 j o)) = _
    refine congrArg (V c main_v44) ?_
    funext a; apply Fin.ext
    match a with
    | ⟨0, _⟩ => show win1_2.index t (0 : Fin 2) * 128 + 1 * j.val = j.val; omega
    | ⟨1, _⟩ => show win1_2.index t (1 : Fin 2) * 128 + 1 * o.val = o.val; omega
  rw [Layers.biasRelu_apply, h0, hb, h2]

/-- An index of the result array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- The ten blocks tile the result array: row r is in the block of the point whose block index is r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have ht' : win1_3.index t (0 : Fin 2) = (i 0).val / 5000 := ht
  obtain ⟨e0, e1, e2, e3, e4, e5, e6⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the launch the result array is the layer of the arrays the launch found. -/
theorem array_eq (c : Dev nD) :
    (dat1 (F := Ideal) V c).arrAt 3 cfg1.N
      = Layers.dense (F := Ideal) (Layers.biasRelu (F := Ideal) (V c main_v42) (V c main_arg4)) (V c main_v44) :=
  (dat1 V c).arrAt_eq_of_cover 3 _ (fun t _ => flushed_eq V c t) cover

end Cert.KernelIdeal.Region1

end
-- ==== Proof.Region2.lean ====
/-
  Launch 2: max(agg + b, 0) · W, computed ten blocks of 5000 rows at a time.

  Row r of the result depends on row r of agg, on the whole bias vector and on the whole weight matrix.  Point t of the
  grid reads rows 5000·t … 5000·t + 4999 of agg, all of b and all of W, and writes the same rows of the result; the ten
  blocks tile the array.  So after the launch the result array is the product of the biased, clamped array with W, as one
  function of the three arrays the launch found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks of agg and of the result move together; b and W stay. -/
theorem idx_facts : ∀ t : Fin cfg2.N, win2_0.index t (0 : Fin 2) = win2_3.index t (0 : Fin 2) ∧ win2_0.index t (1 : Fin 2) = 0
    ∧ win2_1.index t (0 : Fin 1) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the ten row blocks is some point's. -/
theorem idx_onto : ∀ q : Fin 10, ∃ t : Fin cfg2.N, win2_3.index t (0 : Fin 2) = q.val :=
  (by decide +kernel : ∀ q : Fin 10, ∃ t : Fin grid2.N, win2_3.index t (0 : Fin 2) = q.val)

/-- What point t writes back is block t of the whole layer. -/
theorem flushed_eq (c : Dev nD) (t : Fin cfg2.N) :
    (dat2 (F := Ideal) V c).flushed 3 t
      = ((cfg2.win 3).blk t).view.read (Elt Ideal)
          (Layers.dense (F := Ideal) (Layers.biasRelu (F := Ideal) (V c main_v57) (V c main_v59)) (V c main_v61)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S128) hz1]
  obtain ⟨e0, e1, e2, e3, e4, e5, e6⟩ := idx_facts t
  funext y
  obtain ⟨p, o, rfl⟩ : ∃ (p : Fin 5000) (o : Fin 128), y = ix2 p o := ⟨y 0, y 1, eq_ix2 y⟩
  have hp : p.val < 5000 := p.isLt
  have hr : win2_3.index t (0 : Fin 2) * 5000 + p.val < 50000 := by omega
  show k2_pay1 (iblk2 V c 0 t) (iblk2 V c 1 t) (iblk2 V c 2 t) (ix2 p o)
    = Layers.dense (F := Ideal) (Layers.biasRelu (F := Ideal) (V c main_v57) (V c main_v59)) (V c main_v61) (((cfg2.win 3).blk t).view.emb (ix2 p o))
  have hemb : ((cfg2.win 3).blk t).view.emb (ix2 p o) = ix2 (⟨win2_3.index t (0 : Fin 2) * 5000 + p.val, hr⟩ : Fin 50000) o := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * o.val = o.val; omega
  rw [hemb, Layers.dense_apply]
  refine (Pay.k2_pay1_apply (iblk2 V c 0 t) (iblk2 V c 1 t) (iblk2 V c 2 t) p o).trans ?_
  refine Finset.sum_congr rfl fun j _ => ?_
  have h0 : iblk2 V c 0 t (ix2 p j) = V c main_v57 (ix2 (⟨win2_3.index t (0 : Fin 2) * 5000 + p.val, hr⟩ : Fin 50000) j) := by
    show V c main_v57 (((cfg2.win 0).blk t).view.emb (ix2 p j)) = _
    refine congrArg (V c main_v57) ?_
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * j.val = j.val; omega
  have hb : iblk2 V c 1 t (ix1 j) = V c main_v59 (ix1 j) := by
    show V c main_v59 (((cfg2.win 1).blk t).view.emb (ix1 j)) = _
    refine congrArg (V c main_v59) ?_
    funext a; apply Fin.ext
    match a with
    | ⟨0, _⟩ => show win2_1.index t (0 : Fin 1) * 128 + 1 * j.val = j.val; omega
  have h2 : iblk2 V c 2 t (ix2 j o) = V c main_v61 (ix2 j o) := by
    show V c main_v61 (((cfg2.win 2).blk t).view.emb (ix2 j o)) = _
    refine congrArg (V c main_v61) ?_
    funext a; apply Fin.ext
    match a with
    | ⟨0, _⟩ => show win2_2.index t (0 : Fin 2) * 128 + 1 * j.val = j.val; omega
    | ⟨1, _⟩ => show win2_2.index t (1 : Fin 2) * 128 + 1 * o.val = o.val; omega
  rw [Layers.biasRelu_apply, h0, hb, h2]

/-- An index of the result array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v62).slice (win2_3.rect t)).set ↔ _
  rw [View.set_slice_whole, Rect.mem_set_unit]
  exact Iff.rfl

/-- The ten blocks tile the result array: row r is in the block of the point whose block index is r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have ht' : win2_3.index t (0 : Fin 2) = (i 0).val / 5000 := ht
  obtain ⟨e0, e1, e2, e3, e4, e5, e6⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the launch the result array is the layer of the arrays the launch found. -/
theorem array_eq (c : Dev nD) :
    (dat2 (F := Ideal) V c).arrAt 3 cfg2.N
      = Layers.dense (F := Ideal) (Layers.biasRelu (F := Ideal) (V c main_v57) (V c main_v59)) (V c main_v61) :=
  (dat2 V c).arrAt_eq_of_cover 3 _ (fun t _ => flushed_eq V c t) cover

end Cert.KernelIdeal.Region2

end
-- ==== Proof.Region3.lean ====
/-
  Launch 3: max(agg + b, 0) · W, computed ten blocks of 5000 rows at a time.

  Row r of the result depends on row r of agg, on the whole bias vector and on the whole weight matrix.  Point t of the
  grid reads rows 5000·t … 5000·t + 4999 of agg, all of b and all of W, and writes the same rows of the result; the ten
  blocks tile the array.  So after the launch the result array is the product of the biased, clamped array with W, as one
  function of the three arrays the launch found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks of agg and of the result move together; b and W stay. -/
theorem idx_facts : ∀ t : Fin cfg3.N, win3_0.index t (0 : Fin 2) = win3_3.index t (0 : Fin 2) ∧ win3_0.index t (1 : Fin 2) = 0
    ∧ win3_1.index t (0 : Fin 1) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every one of the ten row blocks is some point's. -/
theorem idx_onto : ∀ q : Fin 10, ∃ t : Fin cfg3.N, win3_3.index t (0 : Fin 2) = q.val :=
  (by decide +kernel : ∀ q : Fin 10, ∃ t : Fin grid3.N, win3_3.index t (0 : Fin 2) = q.val)

/-- What point t writes back is block t of the whole layer. -/
theorem flushed_eq (c : Dev nD) (t : Fin cfg3.N) :
    (dat3 (F := Ideal) V c).flushed 3 t
      = ((cfg3.win 3).blk t).view.read (Elt Ideal)
          (Layers.dense (F := Ideal) (Layers.biasRelu (F := Ideal) (V c main_v74) (V c main_v76)) (V c main_v78)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S128) hz1]
  obtain ⟨e0, e1, e2, e3, e4, e5, e6⟩ := idx_facts t
  funext y
  obtain ⟨p, o, rfl⟩ : ∃ (p : Fin 5000) (o : Fin 128), y = ix2 p o := ⟨y 0, y 1, eq_ix2 y⟩
  have hp : p.val < 5000 := p.isLt
  have hr : win3_3.index t (0 : Fin 2) * 5000 + p.val < 50000 := by omega
  show k3_pay1 (iblk3 V c 0 t) (iblk3 V c 1 t) (iblk3 V c 2 t) (ix2 p o)
    = Layers.dense (F := Ideal) (Layers.biasRelu (F := Ideal) (V c main_v74) (V c main_v76)) (V c main_v78) (((cfg3.win 3).blk t).view.emb (ix2 p o))
  have hemb : ((cfg3.win 3).blk t).view.emb (ix2 p o) = ix2 (⟨win3_3.index t (0 : Fin 2) * 5000 + p.val, hr⟩ : Fin 50000) o := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * o.val = o.val; omega
  rw [hemb, Layers.dense_apply]
  refine (Pay.k3_pay1_apply (iblk3 V c 0 t) (iblk3 V c 1 t) (iblk3 V c 2 t) p o).trans ?_
  refine Finset.sum_congr rfl fun j _ => ?_
  have h0 : iblk3 V c 0 t (ix2 p j) = V c main_v74 (ix2 (⟨win3_3.index t (0 : Fin 2) * 5000 + p.val, hr⟩ : Fin 50000) j) := by
    show V c main_v74 (((cfg3.win 0).blk t).view.emb (ix2 p j)) = _
    refine congrArg (V c main_v74) ?_
    funext a; apply Fin.ext
    match a with
    | ⟨0, _⟩ => show win3_0.index t (0 : Fin 2) * 5000 + 1 * p.val = win3_3.index t (0 : Fin 2) * 5000 + p.val; omega
    | ⟨1, _⟩ => show win3_0.index t (1 : Fin 2) * 128 + 1 * j.val = j.val; omega
  have hb : iblk3 V c 1 t (ix1 j) = V c main_v76 (ix1 j) := by
    show V c main_v76 (((cfg3.win 1).blk t).view.emb (ix1 j)) = _
    refine congrArg (V c main_v76) ?_
    funext a; apply Fin.ext
    match a with
    | ⟨0, _⟩ => show win3_1.index t (0 : Fin 1) * 128 + 1 * j.val = j.val; omega
  have h2 : iblk3 V c 2 t (ix2 j o) = V c main_v78 (ix2 j o) := by
    show V c main_v78 (((cfg3.win 2).blk t).view.emb (ix2 j o)) = _
    refine congrArg (V c main_v78) ?_
    funext a; apply Fin.ext
    match a with
    | ⟨0, _⟩ => show win3_2.index t (0 : Fin 2) * 128 + 1 * j.val = j.val; omega
    | ⟨1, _⟩ => show win3_2.index t (1 : Fin 2) * 128 + 1 * o.val = o.val; omega
  rw [Layers.biasRelu_apply, h0, hb, h2]

/-- An index of the result array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v79).slice (win3_3.rect t)).set ↔ _
  rw [View.set_slice_whole, Rect.mem_set_unit]
  exact Iff.rfl

/-- The ten blocks tile the result array: row r is in the block of the point whose block index is r / 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have ht' : win3_3.index t (0 : Fin 2) = (i 0).val / 5000 := ht
  obtain ⟨e0, e1, e2, e3, e4, e5, e6⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the launch the result array is the layer of the arrays the launch found. -/
theorem array_eq (c : Dev nD) :
    (dat3 (F := Ideal) V c).arrAt 3 cfg3.N
      = Layers.dense (F := Ideal) (Layers.biasRelu (F := Ideal) (V c main_v74) (V c main_v76)) (V c main_v78) :=
  (dat3 V c).arrAt_eq_of_cover 3 _ (fun t _ => flushed_eq V c t) cover

end Cert.KernelIdeal.Region3

end
-- ==== Proof.Region4.lean ====
/-
  Launch 4: max(agg + b, 0), computed ten blocks of 5000 rows at a time.

  Entry (r, k) of the result depends on entry (r, k) of agg and on element k of the bias vector.  Point t of the grid
  reads rows 5000·t … 5000·t + 4999 of agg and all of b and writes the same rows of the result; the ten blocks tile the
  array.  So after the launch the result array is the biased, clamped array, as one function of the two arrays found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks of agg and of the result move together; b stays. -/
theorem idx_facts : ∀ t : Fin cfg4.N, win4_0.index t (0 : Fin 2) = win4_2.index t (0 : Fin 2) ∧ win4_0.index t (1 : Fin 2) = 0
    ∧ win4_1.index t (0 : Fin 1) = 0
    ∧ win4_2.index t (1 : Fin 2) = 0 ∧ win4_2.index t (0 : Fin 2) ≤ 9 :=
  (by decide +kernel : ∀ t : Fin grid4.N, _)

/-- Every one of the ten row blocks is some point's. -/
theorem idx_onto : ∀ q : Fin 10, ∃ t : Fin cfg4.N, win4_2.index t (0 : Fin 2) = q.val :=
  (by decide +kernel : ∀ q : Fin 10, ∃ t : Fin grid4.N, win4_2.index t (0 : Fin 2) = q.val)

/-- What point t writes back is block t of the whole biased, clamped array. -/
theorem flushed_eq (c : Dev nD) (t : Fin cfg4.N) :
    (dat4 (F := Ideal) V c).flushed 2 t
      = ((cfg4.win 2).blk t).view.read (Elt Ideal) (Layers.biasRelu (F := Ideal) (V c main_v91) (V c main_v93)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128) hz1]
  obtain ⟨e0, e1, e2, e3, e4⟩ := idx_facts t
  funext y
  obtain ⟨p, o, rfl⟩ : ∃ (p : Fin 5000) (o : Fin 128), y = ix2 p o := ⟨y 0, y 1, eq_ix2 y⟩
  have hp : p.val < 5000 := p.isLt
  have hr : win4_2.index t (0 : Fin 2) * 5000 + p.val < 50000 := by omega
  show k4_pay1 (iblk4 V c 0 t) (iblk4 V c 1 t) (ix2 p o)
    = Layers.biasRelu (F := Ideal) (V c main_v91) (V c main_v93) (((cfg4.win 2).blk t).view.emb (ix2 p o))
  have hemb : ((cfg4.win 2).blk t).view.emb (ix2 p o) = ix2 (⟨win4_2.index t (0 : Fin 2) * 5000 + p.val, hr⟩ : Fin 50000) o := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 128 + 1 * o.val = o.val; omega
  rw [hemb, Layers.biasRelu_apply]
  refine (Pay.k4_pay1_apply (iblk4 V c 0 t) (iblk4 V c 1 t) p o).trans ?_
  have h0 : iblk4 V c 0 t (ix2 p o) = V c main_v91 (ix2 (⟨win4_2.index t (0 : Fin 2) * 5000 + p.val, hr⟩ : Fin 50000) o) := by
    show V c main_v91 (((cfg4.win 0).blk t).view.emb (ix2 p o)) = _
    refine congrArg (V c main_v91) ?_
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 128 + 1 * o.val = o.val; omega
  have hb : iblk4 V c 1 t (ix1 o) = V c main_v93 (ix1 o) := by
    show V c main_v93 (((cfg4.win 1).blk t).view.emb (ix1 o)) = _
    refine congrArg (V c main_v93) ?_
    funext a; apply Fin.ext
    match a with
    | ⟨0, _⟩ => show win4_1.index t (0 : Fin 1) * 128 + 1 * o.val = o.val; omega
  rw [h0, hb]

/-- An index of the result array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v94).slice (win4_2.rect t)).set ↔ _
  rw [View.set_slice_whole, Rect.mem_set_unit]
  exact Iff.rfl

/-- The ten blocks tile the result array: row r is in the block of the point whose block index is r / 5000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto ⟨(i 0).val / 5000, by omega⟩
  have ht' : win4_2.index t (0 : Fin 2) = (i 0).val / 5000 := ht
  obtain ⟨e0, e1, e2, e3, e4⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the launch the result array is the biased, clamped array of the arrays the launch found. -/
theorem array_eq (c : Dev nD) :
    (dat4 (F := Ideal) V c).arrAt 2 cfg4.N = Layers.biasRelu (F := Ideal) (V c main_v91) (V c main_v93) :=
  (dat4 V c).arrAt_eq_of_cover 2 _ (fun t _ => flushed_eq V c t) cover

end Cert.KernelIdeal.Region4

end
-- ==== Proof.Region5.lean ====
/-
  Launch 5: the read-out  max(p · W1 + b1, 0) · W2 + b2  of the pooled matrix, at a grid of one point.

  Every window is its whole array, so the one point reads the five arrays whole and writes the whole result: after the
  launch the result array is the read-out of the five arrays the launch found.
-/
import proofs.«135167_j87771951661224_1_alg».proof.Proof.Gen.KernelIdeal.Frame
import proofs.«135167_j87771951661224_1_alg».proof.Proof.Payloads
import proofs.«135167_j87771951661224_1_alg».proof.Proof.Layers

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps at the grid's one point: every window sits at block zero on every axis. -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0 :=
  (by decide +kernel : ∀ t : Fin grid5.N, _)

/-- What the one point writes back is the whole read-out. -/
theorem flushed_eq (c : Dev nD) (t : Fin cfg5.N) :
    (dat5 (F := Ideal) V c).flushed 5 t
      = ((cfg5.win 5).blk t).view.read (Elt Ideal)
          (Layers.head (F := Ideal) (V c main_v106) (V c main_arg7) (V c main_arg8) (V c main_arg9) (V c main_arg10)) := by
  show (cfg5.win 5).cut (grid5.coords t) ((dat5 V c).after 5 t) = _
  rw [after5_5]
  unfold out5_5
  rw [View.canon_unit_zero hz]
  simp only [View.ld_unit_zero (S := S64x128) hz, View.ld_unit_zero (S := S128x64) hz, View.ld_unit_zero (S := S64x2) hz,
    View.ld_unit_zero (S := S64) hz1, View.ld_unit_zero (S := S2) hz1]
  obtain ⟨e0, e1, e2, e3, e4, e5, e6, e7, e8, e9⟩ := idx_facts t
  have hb0 : iblk5 V c 0 t = V c main_v106 := by
    funext y
    show V c main_v106 (((cfg5.win 0).blk t).view.emb y) = V c main_v106 y
    refine congrArg (V c main_v106) ?_
    funext a; apply Fin.ext
    match a with
    | ⟨0, _⟩ => show win5_0.index t (0 : Fin 2) * 64 + 1 * (y 0).val = (y 0).val; omega
    | ⟨1, _⟩ => show win5_0.index t (1 : Fin 2) * 128 + 1 * (y 1).val = (y 1).val; omega
  have hb1 : iblk5 V c 1 t = V c main_arg7 := by
    funext y
    show V c main_arg7 (((cfg5.win 1).blk t).view.emb y) = V c main_arg7 y
    refine congrArg (V c main_arg7) ?_
    funext a; apply Fin.ext
    match a with
    | ⟨0, _⟩ => show win5_1.index t (0 : Fin 2) * 128 + 1 * (y 0).val = (y 0).val; omega
    | ⟨1, _⟩ => show win5_1.index t (1 : Fin 2) * 64 + 1 * (y 1).val = (y 1).val; omega
  have hb2 : iblk5 V c 2 t = V c main_arg8 := by
    funext y
    show V c main_arg8 (((cfg5.win 2).blk t).view.emb y) = V c main_arg8 y
    refine congrArg (V c main_arg8) ?_
    funext a; apply Fin.ext
    match a with
    | ⟨0, _⟩ => show win5_2.index t (0 : Fin 1) * 64 + 1 * (y 0).val = (y 0).val; omega
  have hb3 : iblk5 V c 3 t = V c main_arg9 := by
    funext y
    show V c main_arg9 (((cfg5.win 3).blk t).view.emb y) = V c main_arg9 y
    refine congrArg (V c main_arg9) ?_
    funext a; apply Fin.ext
    match a with
    | ⟨0, _⟩ => show win5_3.index t (0 : Fin 2) * 64 + 1 * (y 0).val = (y 0).val; omega
    | ⟨1, _⟩ => show win5_3.index t (1 : Fin 2) * 2 + 1 * (y 1).val = (y 1).val; omega
  have hb4 : iblk5 V c 4 t = V c main_arg10 := by
    funext y
    show V c main_arg10 (((cfg5.win 4).blk t).view.emb y) = V c main_arg10 y
    refine congrArg (V c main_arg10) ?_
    funext a; apply Fin.ext
    match a with
    | ⟨0, _⟩ => show win5_4.index t (0 : Fin 1) * 2 + 1 * (y 0).val = (y 0).val; omega
  rw [hb0, hb1, hb2, hb3, hb4]
  funext y
  obtain ⟨g, o, rfl⟩ : ∃ (g : Fin 64) (o : Fin 2), y = ix2 g o := ⟨y 0, y 1, eq_ix2 y⟩
  show k5_pay1 (V c main_v106) (V c main_arg7) (V c main_arg8) (V c main_arg9) (V c main_arg10) (ix2 g o)
    = Layers.head (F := Ideal) (V c main_v106) (V c main_arg7) (V c main_arg8) (V c main_arg9) (V c main_arg10) (((cfg5.win 5).blk t).view.emb (ix2 g o))
  have hemb : ((cfg5.win 5).blk t).view.emb (ix2 g o) = ix2 g o := by
    funext a; apply Fin.ext
    match a with
    | ⟨0, _⟩ => show win5_5.index t (0 : Fin 2) * 64 + 1 * g.val = g.val; omega
    | ⟨1, _⟩ => show win5_5.index t (1 : Fin 2) * 2 + 1 * o.val = o.val; omega
  rw [hemb, Layers.head_apply]
  exact Pay.k5_pay1_apply (V c main_v106) (V c main_arg7) (V c main_arg8) (V c main_arg9) (V c main_arg10) g o

/-- An index of the result array is in the point's block iff each coordinate is in the block's range on its axis. -/
theorem mem_blk (t : Fin cfg5.N) (i : S64x2.Idx) :
    i ∈ ((cfg5.win 5).blk t).view.set ↔ ∀ a : Fin 2, win5_5.index t a * S64x2.size a ≤ (i a).val ∧ (i a).val < win5_5.index t a * S64x2.size a + S64x2.size a := by
  show i ∈ ((View.whole main_v107).slice (win5_5.rect t)).set ↔ _
  rw [View.set_slice_whole, Rect.mem_set_unit]
  exact Iff.rfl

/-- The one block is the whole result array. -/
theorem cover (i : S64x2.Idx) : ∃ t : Fin cfg5.N, (cfg5.win 5).flush t = true ∧ i ∈ ((cfg5.win 5).blk t).view.set := by
  have hi0 : (i 0).val < 64 := (i 0).isLt
  have hi1 : (i 1).val < 2 := (i 1).isLt
  obtain ⟨e0, e1, e2, e3, e4, e5, e6, e7, e8, e9⟩ := idx_facts t5_0
  refine ⟨t5_0, flush5_5 t5_0, ?_⟩
  rw [mem_blk]
  intro a
  match a with
  | ⟨0, _⟩ => show win5_5.index t5_0 (0 : Fin 2) * 64 ≤ (i 0).val ∧ (i 0).val < win5_5.index t5_0 (0 : Fin 2) * 64 + 64; omega
  | ⟨1, _⟩ => show win5_5.index t5_0 (1 : Fin 2) * 2 ≤ (i 1).val ∧ (i 1).val < win5_5.index t5_0 (1 : Fin 2) * 2 + 2; omega

/-- After the launch the result array is the read-out of the arrays the launch found. -/
theorem array_eq (c : Dev nD) :
    (dat5 (F := Ideal) V c).arrAt 5 cfg5.N
      = Layers.head (F := Ideal) (V c main_v106) (V c main_arg7) (V c main_arg8) (V c main_arg9) (V c main_arg10) :=
  (dat5 V c).arrAt_eq_of_cover 5 _ (fun t _ => flushed_eq V c t) cover

end Cert.KernelIdeal.Region5

end
-- ==== Proof.Chain.lean ====
/-
  The kernel program's result, followed segment by segment.

  At each segment boundary the buffers still to be read hold stages of the reference:
    the edge lists and coefficients, computed once, are untouched by everything after them;
    each launch leaves its layer function of the arrays it found (one module per launch);
    each host stretch between two launches gathers, scales and scatter-adds with the same operations as the reference,
    so its results are the reference's next stages once its inputs are.
  Following the six launches and the six stretches ends at the reference's result as a function of the arguments.
-/
import proofs.«135167_j87771951661224_1_alg».proof.Proof.Gen.KernelIdeal.Frame
import proofs.«135167_j87771951661224_1_alg».proof.Proof.Gen.ReferenceIdeal.Read
import proofs.«135167_j87771951661224_1_alg».proof.Proof.Glue
import proofs.«135167_j87771951661224_1_alg».proof.Proof.RefLayers
import proofs.«135167_j87771951661224_1_alg».proof.Proof.Region0
import proofs.«135167_j87771951661224_1_alg».proof.Proof.Region1
import proofs.«135167_j87771951661224_1_alg».proof.Proof.Region2
import proofs.«135167_j87771951661224_1_alg».proof.Proof.Region3
import proofs.«135167_j87771951661224_1_alg».proof.Proof.Region4
import proofs.«135167_j87771951661224_1_alg».proof.Proof.Region5

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- A buffer no operation of a host stretch writes holds after the stretch what it held before. -/
macro "host_keeps " b:term : tactic => `(tactic| exact StableHlo.after_of_forall_not_mem (b := Proc.devRef .tc $b) _ _ (List.forall_iff_forall_mem.mp (by
    simp only [hostOps0, hostOps1, hostOps2, hostOps3, hostOps4, hostOps5, List.Forall, StableHlo.nullary_writes, StableHlo.unary_writes,
      StableHlo.binary_writes, StableHlo.ternary_writes, StableHlo.quaternary_writes, StableHlo.reshape_writes, StableHlo.binaryIndexed_writes,
      Finset.mem_singleton]
    repeat' apply And.intro
    all_goals exact StableHlo.devRef_ne_of_ne (by decide))))

/-! ## What is carried: the edge lists, the coefficients and the arguments still to be read -/

theorem glue_main_v3 (c : Dev nD) : W1 m ρ c (Proc.devRef .tc main_v3) = Cert.ReferenceIdeal.Read.val_main_v3 (F := Ideal) (m ((c : Thread nD τ).loc main_arg1)) := Glue.src_eq m ρ c
theorem glue_main_v6 (c : Dev nD) : W1 m ρ c (Proc.devRef .tc main_v6) = Cert.ReferenceIdeal.Read.val_main_v6 (F := Ideal) (m ((c : Thread nD τ).loc main_arg1)) := Glue.dst_eq m ρ c
theorem glue_main_v29 (c : Dev nD) : W1 m ρ c (Proc.devRef .tc main_v29) = Cert.ReferenceIdeal.Read.val_main_v29 (F := Ideal) (m ((c : Thread nD τ).loc main_arg1)) := Glue.coef_eq m ρ c

theorem keep_main_v3_2 (c : Dev nD) : W2 m ρ c (Proc.devRef .tc main_v3) = W1 m ρ c (Proc.devRef .tc main_v3) := W2_of_ne m ρ c main_v3 (by decide)
theorem keep_main_v3_3 (c : Dev nD) : W3 m ρ c (Proc.devRef .tc main_v3) = W2 m ρ c (Proc.devRef .tc main_v3) := by host_keeps main_v3
theorem keep_main_v3_4 (c : Dev nD) : W4 m ρ c (Proc.devRef .tc main_v3) = W3 m ρ c (Proc.devRef .tc main_v3) := W4_of_ne m ρ c main_v3 (by decide)
theorem keep_main_v3_5 (c : Dev nD) : W5 m ρ c (Proc.devRef .tc main_v3) = W4 m ρ c (Proc.devRef .tc main_v3) := by host_keeps main_v3
theorem keep_main_v3_6 (c : Dev nD) : W6 m ρ c (Proc.devRef .tc main_v3) = W5 m ρ c (Proc.devRef .tc main_v3) := W6_of_ne m ρ c main_v3 (by decide)
theorem keep_main_v3_7 (c : Dev nD) : W7 m ρ c (Proc.devRef .tc main_v3) = W6 m ρ c (Proc.devRef .tc main_v3) := by host_keeps main_v3
theorem keep_main_v3_8 (c : Dev nD) : W8 m ρ c (Proc.devRef .tc main_v3) = W7 m ρ c (Proc.devRef .tc main_v3) := W8_of_ne m ρ c main_v3 (by decide)
theorem keep_main_v6_2 (c : Dev nD) : W2 m ρ c (Proc.devRef .tc main_v6) = W1 m ρ c (Proc.devRef .tc main_v6) := W2_of_ne m ρ c main_v6 (by decide)
theorem keep_main_v6_3 (c : Dev nD) : W3 m ρ c (Proc.devRef .tc main_v6) = W2 m ρ c (Proc.devRef .tc main_v6) := by host_keeps main_v6
theorem keep_main_v6_4 (c : Dev nD) : W4 m ρ c (Proc.devRef .tc main_v6) = W3 m ρ c (Proc.devRef .tc main_v6) := W4_of_ne m ρ c main_v6 (by decide)
theorem keep_main_v6_5 (c : Dev nD) : W5 m ρ c (Proc.devRef .tc main_v6) = W4 m ρ c (Proc.devRef .tc main_v6) := by host_keeps main_v6
theorem keep_main_v6_6 (c : Dev nD) : W6 m ρ c (Proc.devRef .tc main_v6) = W5 m ρ c (Proc.devRef .tc main_v6) := W6_of_ne m ρ c main_v6 (by decide)
theorem keep_main_v6_7 (c : Dev nD) : W7 m ρ c (Proc.devRef .tc main_v6) = W6 m ρ c (Proc.devRef .tc main_v6) := by host_keeps main_v6
theorem keep_main_v6_8 (c : Dev nD) : W8 m ρ c (Proc.devRef .tc main_v6) = W7 m ρ c (Proc.devRef .tc main_v6) := W8_of_ne m ρ c main_v6 (by decide)
theorem keep_main_v29_2 (c : Dev nD) : W2 m ρ c (Proc.devRef .tc main_v29) = W1 m ρ c (Proc.devRef .tc main_v29) := W2_of_ne m ρ c main_v29 (by decide)
theorem keep_main_v29_3 (c : Dev nD) : W3 m ρ c (Proc.devRef .tc main_v29) = W2 m ρ c (Proc.devRef .tc main_v29) := by host_keeps main_v29
theorem keep_main_v29_4 (c : Dev nD) : W4 m ρ c (Proc.devRef .tc main_v29) = W3 m ρ c (Proc.devRef .tc main_v29) := W4_of_ne m ρ c main_v29 (by decide)
theorem keep_main_v29_5 (c : Dev nD) : W5 m ρ c (Proc.devRef .tc main_v29) = W4 m ρ c (Proc.devRef .tc main_v29) := by host_keeps main_v29
theorem keep_main_v29_6 (c : Dev nD) : W6 m ρ c (Proc.devRef .tc main_v29) = W5 m ρ c (Proc.devRef .tc main_v29) := W6_of_ne m ρ c main_v29 (by decide)
theorem keep_main_v29_7 (c : Dev nD) : W7 m ρ c (Proc.devRef .tc main_v29) = W6 m ρ c (Proc.devRef .tc main_v29) := by host_keeps main_v29
theorem keep_main_v29_8 (c : Dev nD) : W8 m ρ c (Proc.devRef .tc main_v29) = W7 m ρ c (Proc.devRef .tc main_v29) := W8_of_ne m ρ c main_v29 (by decide)
theorem keep_main_arg5_1 (c : Dev nD) : W1 m ρ c (Proc.devRef .tc main_arg5) = W0 m ρ c (Proc.devRef .tc main_arg5) := by host_keeps main_arg5
theorem keep_main_arg5_2 (c : Dev nD) : W2 m ρ c (Proc.devRef .tc main_arg5) = W1 m ρ c (Proc.devRef .tc main_arg5) := W2_of_ne m ρ c main_arg5 (by decide)
theorem keep_main_arg5_3 (c : Dev nD) : W3 m ρ c (Proc.devRef .tc main_arg5) = W2 m ρ c (Proc.devRef .tc main_arg5) := by host_keeps main_arg5
theorem keep_main_arg5_4 (c : Dev nD) : W4 m ρ c (Proc.devRef .tc main_arg5) = W3 m ρ c (Proc.devRef .tc main_arg5) := W4_of_ne m ρ c main_arg5 (by decide)
theorem keep_main_arg5_5 (c : Dev nD) : W5 m ρ c (Proc.devRef .tc main_arg5) = W4 m ρ c (Proc.devRef .tc main_arg5) := by host_keeps main_arg5
theorem keep_main_arg5_6 (c : Dev nD) : W6 m ρ c (Proc.devRef .tc main_arg5) = W5 m ρ c (Proc.devRef .tc main_arg5) := W6_of_ne m ρ c main_arg5 (by decide)
theorem keep_main_arg6_1 (c : Dev nD) : W1 m ρ c (Proc.devRef .tc main_arg6) = W0 m ρ c (Proc.devRef .tc main_arg6) := by host_keeps main_arg6
theorem keep_main_arg6_2 (c : Dev nD) : W2 m ρ c (Proc.devRef .tc main_arg6) = W1 m ρ c (Proc.devRef .tc main_arg6) := W2_of_ne m ρ c main_arg6 (by decide)
theorem keep_main_arg6_3 (c : Dev nD) : W3 m ρ c (Proc.devRef .tc main_arg6) = W2 m ρ c (Proc.devRef .tc main_arg6) := by host_keeps main_arg6
theorem keep_main_arg6_4 (c : Dev nD) : W4 m ρ c (Proc.devRef .tc main_arg6) = W3 m ρ c (Proc.devRef .tc main_arg6) := W4_of_ne m ρ c main_arg6 (by decide)
theorem keep_main_arg6_5 (c : Dev nD) : W5 m ρ c (Proc.devRef .tc main_arg6) = W4 m ρ c (Proc.devRef .tc main_arg6) := by host_keeps main_arg6
theorem keep_main_arg6_6 (c : Dev nD) : W6 m ρ c (Proc.devRef .tc main_arg6) = W5 m ρ c (Proc.devRef .tc main_arg6) := W6_of_ne m ρ c main_arg6 (by decide)
theorem keep_main_arg6_7 (c : Dev nD) : W7 m ρ c (Proc.devRef .tc main_arg6) = W6 m ρ c (Proc.devRef .tc main_arg6) := by host_keeps main_arg6
theorem keep_main_arg6_8 (c : Dev nD) : W8 m ρ c (Proc.devRef .tc main_arg6) = W7 m ρ c (Proc.devRef .tc main_arg6) := W8_of_ne m ρ c main_arg6 (by decide)
theorem keep_main_arg4_1 (c : Dev nD) : W1 m ρ c (Proc.devRef .tc main_arg4) = W0 m ρ c (Proc.devRef .tc main_arg4) := by host_keeps main_arg4
theorem keep_main_arg4_2 (c : Dev nD) : W2 m ρ c (Proc.devRef .tc main_arg4) = W1 m ρ c (Proc.devRef .tc main_arg4) := W2_of_ne m ρ c main_arg4 (by decide)
theorem keep_main_arg4_3 (c : Dev nD) : W3 m ρ c (Proc.devRef .tc main_arg4) = W2 m ρ c (Proc.devRef .tc main_arg4) := by host_keeps main_arg4
theorem keep_main_arg0_1 (c : Dev nD) : W1 m ρ c (Proc.devRef .tc main_arg0) = W0 m ρ c (Proc.devRef .tc main_arg0) := by host_keeps main_arg0
theorem keep_main_arg3_1 (c : Dev nD) : W1 m ρ c (Proc.devRef .tc main_arg3) = W0 m ρ c (Proc.devRef .tc main_arg3) := by host_keeps main_arg3

theorem at_main_v3_2 (c : Dev nD) : W2 m ρ c (Proc.devRef .tc main_v3) = Cert.ReferenceIdeal.Read.val_main_v3 (F := Ideal) (m ((c : Thread nD τ).loc main_arg1)) := (keep_main_v3_2 m ρ c).trans (glue_main_v3 m ρ c)
theorem at_main_v3_3 (c : Dev nD) : W3 m ρ c (Proc.devRef .tc main_v3) = Cert.ReferenceIdeal.Read.val_main_v3 (F := Ideal) (m ((c : Thread nD τ).loc main_arg1)) := (keep_main_v3_3 m ρ c).trans (at_main_v3_2 m ρ c)
theorem at_main_v3_4 (c : Dev nD) : W4 m ρ c (Proc.devRef .tc main_v3) = Cert.ReferenceIdeal.Read.val_main_v3 (F := Ideal) (m ((c : Thread nD τ).loc main_arg1)) := (keep_main_v3_4 m ρ c).trans (at_main_v3_3 m ρ c)
theorem at_main_v3_5 (c : Dev nD) : W5 m ρ c (Proc.devRef .tc main_v3) = Cert.ReferenceIdeal.Read.val_main_v3 (F := Ideal) (m ((c : Thread nD τ).loc main_arg1)) := (keep_main_v3_5 m ρ c).trans (at_main_v3_4 m ρ c)
theorem at_main_v3_6 (c : Dev nD) : W6 m ρ c (Proc.devRef .tc main_v3) = Cert.ReferenceIdeal.Read.val_main_v3 (F := Ideal) (m ((c : Thread nD τ).loc main_arg1)) := (keep_main_v3_6 m ρ c).trans (at_main_v3_5 m ρ c)
theorem at_main_v3_7 (c : Dev nD) : W7 m ρ c (Proc.devRef .tc main_v3) = Cert.ReferenceIdeal.Read.val_main_v3 (F := Ideal) (m ((c : Thread nD τ).loc main_arg1)) := (keep_main_v3_7 m ρ c).trans (at_main_v3_6 m ρ c)
theorem at_main_v3_8 (c : Dev nD) : W8 m ρ c (Proc.devRef .tc main_v3) = Cert.ReferenceIdeal.Read.val_main_v3 (F := Ideal) (m ((c : Thread nD τ).loc main_arg1)) := (keep_main_v3_8 m ρ c).trans (at_main_v3_7 m ρ c)
theorem at_main_v6_2 (c : Dev nD) : W2 m ρ c (Proc.devRef .tc main_v6) = Cert.ReferenceIdeal.Read.val_main_v6 (F := Ideal) (m ((c : Thread nD τ).loc main_arg1)) := (keep_main_v6_2 m ρ c).trans (glue_main_v6 m ρ c)
theorem at_main_v6_3 (c : Dev nD) : W3 m ρ c (Proc.devRef .tc main_v6) = Cert.ReferenceIdeal.Read.val_main_v6 (F := Ideal) (m ((c : Thread nD τ).loc main_arg1)) := (keep_main_v6_3 m ρ c).trans (at_main_v6_2 m ρ c)
theorem at_main_v6_4 (c : Dev nD) : W4 m ρ c (Proc.devRef .tc main_v6) = Cert.ReferenceIdeal.Read.val_main_v6 (F := Ideal) (m ((c : Thread nD τ).loc main_arg1)) := (keep_main_v6_4 m ρ c).trans (at_main_v6_3 m ρ c)
theorem at_main_v6_5 (c : Dev nD) : W5 m ρ c (Proc.devRef .tc main_v6) = Cert.ReferenceIdeal.Read.val_main_v6 (F := Ideal) (m ((c : Thread nD τ).loc main_arg1)) := (keep_main_v6_5 m ρ c).trans (at_main_v6_4 m ρ c)
theorem at_main_v6_6 (c : Dev nD) : W6 m ρ c (Proc.devRef .tc main_v6) = Cert.ReferenceIdeal.Read.val_main_v6 (F := Ideal) (m ((c : Thread nD τ).loc main_arg1)) := (keep_main_v6_6 m ρ c).trans (at_main_v6_5 m ρ c)
theorem at_main_v6_7 (c : Dev nD) : W7 m ρ c (Proc.devRef .tc main_v6) = Cert.ReferenceIdeal.Read.val_main_v6 (F := Ideal) (m ((c : Thread nD τ).loc main_arg1)) := (keep_main_v6_7 m ρ c).trans (at_main_v6_6 m ρ c)
theorem at_main_v6_8 (c : Dev nD) : W8 m ρ c (Proc.devRef .tc main_v6) = Cert.ReferenceIdeal.Read.val_main_v6 (F := Ideal) (m ((c : Thread nD τ).loc main_arg1)) := (keep_main_v6_8 m ρ c).trans (at_main_v6_7 m ρ c)
theorem at_main_v29_2 (c : Dev nD) : W2 m ρ c (Proc.devRef .tc main_v29) = Cert.ReferenceIdeal.Read.val_main_v29 (F := Ideal) (m ((c : Thread nD τ).loc main_arg1)) := (keep_main_v29_2 m ρ c).trans (glue_main_v29 m ρ c)
theorem at_main_v29_3 (c : Dev nD) : W3 m ρ c (Proc.devRef .tc main_v29) = Cert.ReferenceIdeal.Read.val_main_v29 (F := Ideal) (m ((c : Thread nD τ).loc main_arg1)) := (keep_main_v29_3 m ρ c).trans (at_main_v29_2 m ρ c)
theorem at_main_v29_4 (c : Dev nD) : W4 m ρ c (Proc.devRef .tc main_v29) = Cert.ReferenceIdeal.Read.val_main_v29 (F := Ideal) (m ((c : Thread nD τ).loc main_arg1)) := (keep_main_v29_4 m ρ c).trans (at_main_v29_3 m ρ c)
theorem at_main_v29_5 (c : Dev nD) : W5 m ρ c (Proc.devRef .tc main_v29) = Cert.ReferenceIdeal.Read.val_main_v29 (F := Ideal) (m ((c : Thread nD τ).loc main_arg1)) := (keep_main_v29_5 m ρ c).trans (at_main_v29_4 m ρ c)
theorem at_main_v29_6 (c : Dev nD) : W6 m ρ c (Proc.devRef .tc main_v29) = Cert.ReferenceIdeal.Read.val_main_v29 (F := Ideal) (m ((c : Thread nD τ).loc main_arg1)) := (keep_main_v29_6 m ρ c).trans (at_main_v29_5 m ρ c)
theorem at_main_v29_7 (c : Dev nD) : W7 m ρ c (Proc.devRef .tc main_v29) = Cert.ReferenceIdeal.Read.val_main_v29 (F := Ideal) (m ((c : Thread nD τ).loc main_arg1)) := (keep_main_v29_7 m ρ c).trans (at_main_v29_6 m ρ c)
theorem at_main_v29_8 (c : Dev nD) : W8 m ρ c (Proc.devRef .tc main_v29) = Cert.ReferenceIdeal.Read.val_main_v29 (F := Ideal) (m ((c : Thread nD τ).loc main_arg1)) := (keep_main_v29_8 m ρ c).trans (at_main_v29_7 m ρ c)
theorem at_main_arg5_1 (c : Dev nD) : W1 m ρ c (Proc.devRef .tc main_arg5) = (m ((c : Thread nD τ).loc main_arg5)) := (keep_main_arg5_1 m ρ c).trans (rfl)
theorem at_main_arg5_2 (c : Dev nD) : W2 m ρ c (Proc.devRef .tc main_arg5) = (m ((c : Thread nD τ).loc main_arg5)) := (keep_main_arg5_2 m ρ c).trans (at_main_arg5_1 m ρ c)
theorem at_main_arg5_3 (c : Dev nD) : W3 m ρ c (Proc.devRef .tc main_arg5) = (m ((c : Thread nD τ).loc main_arg5)) := (keep_main_arg5_3 m ρ c).trans (at_main_arg5_2 m ρ c)
theorem at_main_arg5_4 (c : Dev nD) : W4 m ρ c (Proc.devRef .tc main_arg5) = (m ((c : Thread nD τ).loc main_arg5)) := (keep_main_arg5_4 m ρ c).trans (at_main_arg5_3 m ρ c)
theorem at_main_arg5_5 (c : Dev nD) : W5 m ρ c (Proc.devRef .tc main_arg5) = (m ((c : Thread nD τ).loc main_arg5)) := (keep_main_arg5_5 m ρ c).trans (at_main_arg5_4 m ρ c)
theorem at_main_arg5_6 (c : Dev nD) : W6 m ρ c (Proc.devRef .tc main_arg5) = (m ((c : Thread nD τ).loc main_arg5)) := (keep_main_arg5_6 m ρ c).trans (at_main_arg5_5 m ρ c)
theorem at_main_arg6_1 (c : Dev nD) : W1 m ρ c (Proc.devRef .tc main_arg6) = (m ((c : Thread nD τ).loc main_arg6)) := (keep_main_arg6_1 m ρ c).trans (rfl)
theorem at_main_arg6_2 (c : Dev nD) : W2 m ρ c (Proc.devRef .tc main_arg6) = (m ((c : Thread nD τ).loc main_arg6)) := (keep_main_arg6_2 m ρ c).trans (at_main_arg6_1 m ρ c)
theorem at_main_arg6_3 (c : Dev nD) : W3 m ρ c (Proc.devRef .tc main_arg6) = (m ((c : Thread nD τ).loc main_arg6)) := (keep_main_arg6_3 m ρ c).trans (at_main_arg6_2 m ρ c)
theorem at_main_arg6_4 (c : Dev nD) : W4 m ρ c (Proc.devRef .tc main_arg6) = (m ((c : Thread nD τ).loc main_arg6)) := (keep_main_arg6_4 m ρ c).trans (at_main_arg6_3 m ρ c)
theorem at_main_arg6_5 (c : Dev nD) : W5 m ρ c (Proc.devRef .tc main_arg6) = (m ((c : Thread nD τ).loc main_arg6)) := (keep_main_arg6_5 m ρ c).trans (at_main_arg6_4 m ρ c)
theorem at_main_arg6_6 (c : Dev nD) : W6 m ρ c (Proc.devRef .tc main_arg6) = (m ((c : Thread nD τ).loc main_arg6)) := (keep_main_arg6_6 m ρ c).trans (at_main_arg6_5 m ρ c)
theorem at_main_arg6_7 (c : Dev nD) : W7 m ρ c (Proc.devRef .tc main_arg6) = (m ((c : Thread nD τ).loc main_arg6)) := (keep_main_arg6_7 m ρ c).trans (at_main_arg6_6 m ρ c)
theorem at_main_arg6_8 (c : Dev nD) : W8 m ρ c (Proc.devRef .tc main_arg6) = (m ((c : Thread nD τ).loc main_arg6)) := (keep_main_arg6_8 m ρ c).trans (at_main_arg6_7 m ρ c)
theorem at_main_arg4_1 (c : Dev nD) : W1 m ρ c (Proc.devRef .tc main_arg4) = (m ((c : Thread nD τ).loc main_arg4)) := (keep_main_arg4_1 m ρ c).trans (rfl)
theorem at_main_arg4_2 (c : Dev nD) : W2 m ρ c (Proc.devRef .tc main_arg4) = (m ((c : Thread nD τ).loc main_arg4)) := (keep_main_arg4_2 m ρ c).trans (at_main_arg4_1 m ρ c)
theorem at_main_arg4_3 (c : Dev nD) : W3 m ρ c (Proc.devRef .tc main_arg4) = (m ((c : Thread nD τ).loc main_arg4)) := (keep_main_arg4_3 m ρ c).trans (at_main_arg4_2 m ρ c)
theorem at_main_arg0_1 (c : Dev nD) : W1 m ρ c (Proc.devRef .tc main_arg0) = (m ((c : Thread nD τ).loc main_arg0)) := (keep_main_arg0_1 m ρ c).trans (rfl)
theorem at_main_arg3_1 (c : Dev nD) : W1 m ρ c (Proc.devRef .tc main_arg3) = (m ((c : Thread nD τ).loc main_arg3)) := (keep_main_arg3_1 m ρ c).trans (rfl)

/-- The graph assignment is read by the last stretch; the read-out's weights by the last launch: each is as launched. -/
theorem keep_main_arg2_11 (c : Dev nD) : W11 m ρ c (Proc.devRef .tc main_arg2) = W10 m ρ c (Proc.devRef .tc main_arg2) := by host_keeps main_arg2
theorem at_main_arg2_10 (c : Dev nD) : W10 m ρ c (Proc.devRef .tc main_arg2) = (m ((c : Thread nD τ).loc main_arg2)) :=
  ((W12_of_ne m ρ c main_arg2 (by decide)).trans (keep_main_arg2_11 m ρ c)).symm.trans (W12_main_arg2 m ρ c)
theorem at_main_arg7_11 (c : Dev nD) : W11 m ρ c (Proc.devRef .tc main_arg7) = (m ((c : Thread nD τ).loc main_arg7)) :=
  ((W12_arr m ρ c 1).trans (((dat5 (V11 m ρ) c).arrAt_in 1 rfl _).trans (A_eq5 (V11 m ρ) c 1))).symm.trans (W12_main_arg7 m ρ c)
theorem at_main_arg8_11 (c : Dev nD) : W11 m ρ c (Proc.devRef .tc main_arg8) = (m ((c : Thread nD τ).loc main_arg8)) :=
  ((W12_arr m ρ c 2).trans (((dat5 (V11 m ρ) c).arrAt_in 2 rfl _).trans (A_eq5 (V11 m ρ) c 2))).symm.trans (W12_main_arg8 m ρ c)
theorem at_main_arg9_11 (c : Dev nD) : W11 m ρ c (Proc.devRef .tc main_arg9) = (m ((c : Thread nD τ).loc main_arg9)) :=
  ((W12_arr m ρ c 3).trans (((dat5 (V11 m ρ) c).arrAt_in 3 rfl _).trans (A_eq5 (V11 m ρ) c 3))).symm.trans (W12_main_arg9 m ρ c)
theorem at_main_arg10_11 (c : Dev nD) : W11 m ρ c (Proc.devRef .tc main_arg10) = (m ((c : Thread nD τ).loc main_arg10)) :=
  ((W12_arr m ρ c 4).trans (((dat5 (V11 m ρ) c).arrAt_in 4 rfl _).trans (A_eq5 (V11 m ρ) c 4))).symm.trans (W12_main_arg10 m ρ c)

/-! ## The stages -/

/-- After the first launch: the product x · W0. -/
theorem first (c : Dev nD) : W2 m ρ c (Proc.devRef .tc main_v30) = Layers.dense (F := Ideal) (m ((c : Thread nD τ).loc main_arg0)) (m ((c : Thread nD τ).loc main_arg3)) :=
  (W2_arr m ρ c 2).trans <| (Region0.array_eq (V1 m ρ) c).trans <| by
    rw [show V1 m ρ c main_arg0 = (m ((c : Thread nD τ).loc main_arg0)) from at_main_arg0_1 m ρ c, show V1 m ρ c main_arg3 = (m ((c : Thread nD τ).loc main_arg3)) from at_main_arg3_1 m ρ c]

/-- The first aggregate: the product's rows gathered at the sources, scaled, scatter-added at the destinations. -/
theorem agg0 (c : Dev nD) : W3 m ρ c (Proc.devRef .tc main_v42) = Cert.ReferenceIdeal.Read.val_main_v42 (F := Ideal) (m ((c : Thread nD τ).loc main_arg0)) (m ((c : Thread nD τ).loc main_arg1)) (m ((c : Thread nD τ).loc main_arg3)) := by
  show StableHlo.after hostOps1 (W2 m ρ c) (Proc.devRef .tc main_v42) = _
  simp only [hostOps1]
  after_results_simp
  rw [first m ρ c, at_main_v3_2 m ρ c, at_main_v6_2 m ρ c, at_main_v29_2 m ρ c]
  rfl

/-- The first square weight matrix Ws[0]. -/
theorem w0 (c : Dev nD) : W3 m ρ c (Proc.devRef .tc main_v44) = Cert.ReferenceIdeal.Read.val_main_v48 (F := Ideal) (m ((c : Thread nD τ).loc main_arg5)) := by
  show StableHlo.after hostOps1 (W2 m ρ c) (Proc.devRef .tc main_v44) = _
  simp only [hostOps1]
  after_results_simp
  rw [at_main_arg5_2 m ρ c]
  rfl

/-- After the second launch: the reference's second transform. -/
theorem hw1 (c : Dev nD) : W4 m ρ c (Proc.devRef .tc main_v45) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W4_arr m ρ c 3).trans <| (Region1.array_eq (V3 m ρ) c).trans <| by
    rw [show V3 m ρ c main_v42 = Cert.ReferenceIdeal.Read.val_main_v42 (F := Ideal) (m ((c : Thread nD τ).loc main_arg0)) (m ((c : Thread nD τ).loc main_arg1)) (m ((c : Thread nD τ).loc main_arg3)) from agg0 m ρ c, show V3 m ρ c main_arg4 = (m ((c : Thread nD τ).loc main_arg4)) from at_main_arg4_3 m ρ c,
      show V3 m ρ c main_v44 = Cert.ReferenceIdeal.Read.val_main_v48 (F := Ideal) (m ((c : Thread nD τ).loc main_arg5)) from w0 m ρ c]
    exact RefLayers.layer1_eq (m ((c : Thread nD τ).loc main_arg0)) (m ((c : Thread nD τ).loc main_arg1)) (m ((c : Thread nD τ).loc main_arg3)) (m ((c : Thread nD τ).loc main_arg4)) (m ((c : Thread nD τ).loc main_arg5))

/-- The second aggregate. -/
theorem agg1 (c : Dev nD) : W5 m ρ c (Proc.devRef .tc main_v57) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) (Proc.devRef .tc main_v57) = _
  simp only [hostOps2]
  after_results_simp
  rw [hw1 m ρ c, at_main_v3_4 m ρ c, at_main_v6_4 m ρ c, at_main_v29_4 m ρ c]
  rfl

/-- The bias bs[0]. -/
theorem b1 (c : Dev nD) : W5 m ρ c (Proc.devRef .tc main_v59) = Cert.ReferenceIdeal.Read.val_main_v50 (F := Ideal) (m ((c : Thread nD τ).loc main_arg6)) := by
  show StableHlo.after hostOps2 (W4 m ρ c) (Proc.devRef .tc main_v59) = _
  simp only [hostOps2]
  after_results_simp
  rw [at_main_arg6_4 m ρ c]
  rfl

/-- The weight matrix Ws[1]. -/
theorem w1 (c : Dev nD) : W5 m ρ c (Proc.devRef .tc main_v61) = Cert.ReferenceIdeal.Read.val_main_v69 (F := Ideal) (m ((c : Thread nD τ).loc main_arg5)) := by
  show StableHlo.after hostOps2 (W4 m ρ c) (Proc.devRef .tc main_v61) = _
  simp only [hostOps2]
  after_results_simp
  rw [at_main_arg5_4 m ρ c]
  rfl

/-- After the third launch: the reference's third transform. -/
theorem hw2 (c : Dev nD) : W6 m ρ c (Proc.devRef .tc main_v62) = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W6_arr m ρ c 3).trans <| (Region2.array_eq (V5 m ρ) c).trans <| by
    rw [show V5 m ρ c main_v57 = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) from agg1 m ρ c, show V5 m ρ c main_v59 = Cert.ReferenceIdeal.Read.val_main_v50 (F := Ideal) (m ((c : Thread nD τ).loc main_arg6)) from b1 m ρ c,
      show V5 m ρ c main_v61 = Cert.ReferenceIdeal.Read.val_main_v69 (F := Ideal) (m ((c : Thread nD τ).loc main_arg5)) from w1 m ρ c]
    exact RefLayers.layer2_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- The third aggregate. -/
theorem agg2 (c : Dev nD) : W7 m ρ c (Proc.devRef .tc main_v74) = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v74) = _
  simp only [hostOps3]
  after_results_simp
  rw [hw2 m ρ c, at_main_v3_6 m ρ c, at_main_v6_6 m ρ c, at_main_v29_6 m ρ c]
  rfl

/-- The bias bs[1]. -/
theorem b2 (c : Dev nD) : W7 m ρ c (Proc.devRef .tc main_v76) = Cert.ReferenceIdeal.Read.val_main_v71 (F := Ideal) (m ((c : Thread nD τ).loc main_arg6)) := by
  show StableHlo.after hostOps3 (W6 m ρ c) (Proc.devRef .tc main_v76) = _
  simp only [hostOps3]
  after_results_simp
  rw [at_main_arg6_6 m ρ c]
  rfl

/-- The weight matrix Ws[2]. -/
theorem w2 (c : Dev nD) : W7 m ρ c (Proc.devRef .tc main_v78) = Cert.ReferenceIdeal.Read.val_main_v90 (F := Ideal) (m ((c : Thread nD τ).loc main_arg5)) := by
  show StableHlo.after hostOps3 (W6 m ρ c) (Proc.devRef .tc main_v78) = _
  simp only [hostOps3]
  after_results_simp
  rw [at_main_arg5_6 m ρ c]
  rfl

/-- After the fourth launch: the reference's fourth transform. -/
theorem hw3 (c : Dev nD) : W8 m ρ c (Proc.devRef .tc main_v79) = Cert.ReferenceIdeal.Read.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 3).trans <| (Region3.array_eq (V7 m ρ) c).trans <| by
    rw [show V7 m ρ c main_v74 = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) from agg2 m ρ c, show V7 m ρ c main_v76 = Cert.ReferenceIdeal.Read.val_main_v71 (F := Ideal) (m ((c : Thread nD τ).loc main_arg6)) from b2 m ρ c,
      show V7 m ρ c main_v78 = Cert.ReferenceIdeal.Read.val_main_v90 (F := Ideal) (m ((c : Thread nD τ).loc main_arg5)) from w2 m ρ c]
    exact RefLayers.layer3_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- The fourth aggregate. -/
theorem agg3 (c : Dev nD) : W9 m ρ c (Proc.devRef .tc main_v91) = Cert.ReferenceIdeal.Read.val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps4 (W8 m ρ c) (Proc.devRef .tc main_v91) = _
  simp only [hostOps4]
  after_results_simp
  rw [hw3 m ρ c, at_main_v3_8 m ρ c, at_main_v6_8 m ρ c, at_main_v29_8 m ρ c]
  rfl

/-- The bias bs[2]. -/
theorem b3 (c : Dev nD) : W9 m ρ c (Proc.devRef .tc main_v93) = Cert.ReferenceIdeal.Read.val_main_v92 (F := Ideal) (m ((c : Thread nD τ).loc main_arg6)) := by
  show StableHlo.after hostOps4 (W8 m ρ c) (Proc.devRef .tc main_v93) = _
  simp only [hostOps4]
  after_results_simp
  rw [at_main_arg6_8 m ρ c]
  rfl

/-- After the fifth launch: the node features before pooling. -/
theorem feats (c : Dev nD) : W10 m ρ c (Proc.devRef .tc main_v94) = Cert.ReferenceIdeal.Read.val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_arr m ρ c 2).trans <| (Region4.array_eq (V9 m ρ) c).trans <| by
    rw [show V9 m ρ c main_v91 = Cert.ReferenceIdeal.Read.val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) from agg3 m ρ c, show V9 m ρ c main_v93 = Cert.ReferenceIdeal.Read.val_main_v92 (F := Ideal) (m ((c : Thread nD τ).loc main_arg6)) from b3 m ρ c]
    exact RefLayers.last_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- The pooled features: per-graph sums of the node features over per-graph counts clamped below at one. -/
theorem pooled (c : Dev nD) : W11 m ρ c (Proc.devRef .tc main_v106) = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v106) = _
  simp only [hostOps5]
  after_results_simp
  rw [feats m ρ c, at_main_arg2_10 m ρ c]
  rfl

/-- After the last launch: the reference's result, as a function of the kernel program's own arguments. -/
theorem result (c : Dev nD) : W12 m ρ c (Proc.devRef .tc main_v107) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 5).trans <| (Region5.array_eq (V11 m ρ) c).trans <| by
    rw [show V11 m ρ c main_v106 = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from pooled m ρ c, show V11 m ρ c main_arg7 = (m ((c : Thread nD τ).loc main_arg7)) from at_main_arg7_11 m ρ c,
      show V11 m ρ c main_arg8 = (m ((c : Thread nD τ).loc main_arg8)) from at_main_arg8_11 m ρ c, show V11 m ρ c main_arg9 = (m ((c : Thread nD τ).loc main_arg9)) from at_main_arg9_11 m ρ c,
      show V11 m ρ c main_arg10 = (m ((c : Thread nD τ).loc main_arg10)) from at_main_arg10_11 m ρ c]
    exact RefLayers.head_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

end Cert.KernelIdeal.Chain

end
-- ==== Proof.lean ====
/-
  A four-layer graph convolution network with mean pooling and a two-layer read-out: the tiled kernel program against
  the plain reference, on the extended reals.

  Both programs compute, from the node features x, the edge lists, the graph assignment and the weights,
    h0 = x · W0,   h(k+1) = max(A h(k) + b(k), 0) · Ws[k]   (k = 0, 1, 2),   h = max(A h3 + bs[2], 0),
    out = max(pool(h) · W1 + b1, 0) · W2 + b2,
  where A gathers rows at the edge sources, scales them by the normalisation coefficients and scatter-adds them at the edge
  destinations, and pool divides per-graph sums by per-graph counts.  The kernel program does every dense step in a launch
  that walks the 50000 rows in ten blocks of 5000 (the read-out in one block), rounding the factors of each product to a
  narrower float format first; the reference does each as one whole-array operation.  On the extended reals a change of
  format is the identity and a matrix unit's product into zero is the plain sum, and every dense step acts row by row, so
  each launch leaves exactly the reference's whole-array stage; the gathers, scalings and scatter-adds between them are
  the same operations in both programs.  No law beyond that is used: no sum is regrouped and nothing is cancelled, so the
  finiteness of the inputs is never needed.
-/
import proofs.«135167_j87771951661224_1_alg».proof.Defs
import proofs.«135167_j87771951661224_1_alg».proof.Proof.Gen.Kernel
import proofs.«135167_j87771951661224_1_alg».proof.Proof.Gen.Kernel.Frame
import proofs.«135167_j87771951661224_1_alg».proof.Proof.Gen.KernelIdeal
import proofs.«135167_j87771951661224_1_alg».proof.Proof.Gen.KernelIdeal.Frame
import proofs.«135167_j87771951661224_1_alg».proof.Proof.Gen.ReferenceIdeal
import proofs.«135167_j87771951661224_1_alg».proof.Proof.Gen.Pre_finite_inputs
import proofs.«135167_j87771951661224_1_alg».proof.Proof.Gen.ReferenceIdeal.Run
import proofs.«135167_j87771951661224_1_alg».proof.Proof.Gen.ReferenceIdeal.Read
import proofs.«135167_j87771951661224_1_alg».proof.Proof.KernelRun
import proofs.«135167_j87771951661224_1_alg».proof.Proof.Chain
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as launched: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote none of its operations. -/
theorem preserves : Cert.preserves_Kernel_KernelIdeal := trivial

/-- From memories that agree on the arguments both programs end with the same result: the reference's result as a
    function of the arguments.  The kernel program's run ends with its result at the last segment boundary's contents,
    which followed through the launches and host stretches is that function; the reference's run ends at it directly. -/
theorem algebraic : Cert.algebraic_KernelIdeal_ReferenceIdeal := by
  intro m ρ m' ρ' _ hagree
  refine ⟨fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v130_eq m' c).trans ?_)
    obtain ⟨a0, a1, a2, a3, a4, a5, a6, a7, a8, a9, a10⟩ := hagree c
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
